-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v24)) (v1 : (c : Dev Cert.KernelIdeal.nD) → Buf (Elt Ideal) ((c.tc : Thread Cert.KernelIdeal.nD Cert.KernelIdeal.τ).loc Cert.KernelIdeal.main_v25)) (v2 : (c : Dev Cert.KernelIdeal.nD) → Buf (Elt Ideal) ((c.tc : Thread Cert.KernelIdeal.nD Cert.KernelIdeal.τ).loc Cert.KernelIdeal.main_v7)) (v3 : (c : Dev Cert.KernelIdeal.nD) → Buf (Elt Ideal) ((c.tc : Thread Cert.KernelIdeal.nD Cert.KernelIdeal.τ).loc Cert.KernelIdeal.main_v2_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v24) = v0 c
          ∧ r.2.mem ((c.tc : Thread Cert.KernelIdeal.nD Cert.KernelIdeal.τ).loc Cert.KernelIdeal.main_v25) = v1 c
          ∧ r.2.mem ((c.tc : Thread Cert.KernelIdeal.nD Cert.KernelIdeal.τ).loc Cert.KernelIdeal.main_v7) = v2 c
          ∧ r.2.mem ((c.tc : Thread Cert.KernelIdeal.nD Cert.KernelIdeal.τ).loc Cert.KernelIdeal.main_v2_0) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_v39) = v1 c
          ∧ r.2.mem ((c.tc : Thread Cert.ReferenceIdeal.nD Cert.ReferenceIdeal.τ).loc Cert.ReferenceIdeal.main_v21) = v2 c
          ∧ r.2.mem ((c.tc : Thread Cert.ReferenceIdeal.nD Cert.ReferenceIdeal.τ).loc Cert.ReferenceIdeal.main_v8) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S64 : Shape := ⟨1, ![64]⟩
abbrev S32768x3 : Shape := ⟨2, ![32768, 3]⟩
abbrev S_ : Shape := ⟨0, ![]⟩

class Facts : Prop where
  bcast_S_S32768x3 : S_.BroadcastsInDim S32768x3 (![] : Fin 0 → Fin S32768x3.rank)
  reducesTo_S32768x3_S_d0_1 : S32768x3.ReducesTo [0, 1] S_
  h_S_ : 0 < S_.numel

variable [Facts]

def fn {F : FTy → Type} [FloatOps F] (main_arg0 : IVec S64 32) (main_arg1 : FVec F S32768x3 .f32) : IVec S_ 1 :=
  let main_v0 : FVec F S32768x3 .f32 := Host.absf main_arg1
  let main_cst : FVec F S_ .f32 := constant S_ .f32 0x7F800000#32
  let main_v1 : FVec F S32768x3 .f32 := broadcastInDim S32768x3 ![] bcast_S_S32768x3 main_cst
  let main_v2 : IVec S32768x3 1 := cmpf .olt main_v0 main_v1
  let main_c : IVec S_ 1 := constantI S_ 1 1#1
  let main_v3 : IVec S_ 1 := (fun x v => Host.reduce IntOp.andi x v reducesTo_S32768x3_S_d0_1 h_S_) main_v2 main_c
  main_v3
-- ==== Kernel.lean ====
abbrev S64 : Shape := ⟨1, ![64]⟩
abbrev S32768x3 : Shape := ⟨2, ![32768, 3]⟩
abbrev S64x512x3 : Shape := ⟨3, ![64, 512, 3]⟩
abbrev S64x3x512 : Shape := ⟨3, ![64, 3, 512]⟩
abbrev S64x512x512 : Shape := ⟨3, ![64, 512, 512]⟩
abbrev S512x3 : Shape := ⟨2, ![512, 3]⟩
abbrev S1x3x512 : Shape := ⟨3, ![1, 3, 512]⟩
abbrev S1x512x512 : Shape := ⟨3, ![1, 512, 512]⟩
abbrev S512x512 : Shape := ⟨2, ![512, 512]⟩
abbrev S512x1 : Shape := ⟨2, ![512, 1]⟩
abbrev S1x1x512 : Shape := ⟨3, ![1, 1, 512]⟩
abbrev S1x512 : Shape := ⟨2, ![1, 512]⟩
abbrev S_ : Shape := ⟨0, ![]⟩
abbrev S512 : Shape := ⟨1, ![512]⟩
abbrev S512x512x1 : Shape := ⟨3, ![512, 512, 1]⟩
abbrev S512x512x2 : Shape := ⟨3, ![512, 512, 2]⟩
abbrev S64x1x1x1 : Shape := ⟨4, ![64, 1, 1, 1]⟩
abbrev S1x512x512x2 : Shape := ⟨4, ![1, 512, 512, 2]⟩
abbrev S64x512x512x2 : Shape := ⟨4, ![64, 512, 512, 2]⟩
abbrev S16777216x2 : Shape := ⟨2, ![16777216, 2]⟩
abbrev S16777216 : Shape := ⟨1, ![16777216]⟩

abbrev nBuf : Space → Nat
  | .hbm => 32
  | .vmem => 8
  | .smem => 0
  | _ => 0

abbrev bufTy : (tb : Table) → Fin (tcTables nBuf tb) → BufTy
  | .hbm, ⟨0, _⟩ => ⟨S64, .i32⟩
  | .hbm, ⟨1, _⟩ => ⟨S32768x3, .f32⟩
  | .hbm, ⟨2, _⟩ => ⟨S64x512x3, .f32⟩
  | .hbm, ⟨3, _⟩ => ⟨S64x3x512, .f32⟩
  | .hbm, ⟨4, _⟩ => ⟨S64x512x512, .f32⟩
  | .hbm, ⟨5, _⟩ => ⟨S64x512x512, .i32⟩
  | .hbm, ⟨6, _⟩ => ⟨S_, .i32⟩
  | .hbm, ⟨7, _⟩ => ⟨S64x512x512, .i32⟩
  | .hbm, ⟨8, _⟩ => ⟨S64x512x512, .i1⟩
  | .hbm, ⟨9, _⟩ => ⟨S64x512x512, .i1⟩
  | .hbm, ⟨10, _⟩ => ⟨S64x512x512, .i32⟩
  | .hbm, ⟨11, _⟩ => ⟨S_, .i32⟩
  | .hbm, ⟨12, _⟩ => ⟨S64, .i32⟩
  | .hbm, ⟨13, _⟩ => ⟨S512, .i32⟩
  | .hbm, ⟨14, _⟩ => ⟨S512x1, .i32⟩
  | .hbm, ⟨15, _⟩ => ⟨S512x512, .i32⟩
  | .hbm, ⟨16, _⟩ => ⟨S1x512, .i32⟩
  | .hbm, ⟨17, _⟩ => ⟨S512x512, .i32⟩
  | .hbm, ⟨18, _⟩ => ⟨S512x512x1, .i32⟩
  | .hbm, ⟨19, _⟩ => ⟨S512x512x1, .i32⟩
  | .hbm, ⟨20, _⟩ => ⟨S512x512x2, .i32⟩
  | .hbm, ⟨21, _⟩ => ⟨S64, .i32⟩
  | .hbm, ⟨22, _⟩ => ⟨S_, .i32⟩
  | .hbm, ⟨23, _⟩ => ⟨S64, .i32⟩
  | .hbm, ⟨24, _⟩ => ⟨S64, .i32⟩
  | .hbm, ⟨25, _⟩ => ⟨S64x1x1x1, .i32⟩
  | .hbm, ⟨26, _⟩ => ⟨S1x512x512x2, .i32⟩
  | .hbm, ⟨27, _⟩ => ⟨S64x512x512x2, .i32⟩
  | .hbm, ⟨28, _⟩ => ⟨S64x512x512x2, .i32⟩
  | .hbm, ⟨29, _⟩ => ⟨S64x512x512x2, .i32⟩
  | .hbm, ⟨30, _⟩ => ⟨S16777216x2, .i32⟩
  | .hbm, ⟨31, _⟩ => ⟨S16777216, .i1⟩
  | .local _ .vmem, ⟨0, _⟩ => ⟨S512x3, .f32⟩
  | .local _ .vmem, ⟨1, _⟩ => ⟨S512x3, .f32⟩
  | .local _ .vmem, ⟨2, _⟩ => ⟨S1x3x512, .f32⟩
  | .local _ .vmem, ⟨3, _⟩ => ⟨S1x3x512, .f32⟩
  | .local _ .vmem, ⟨4, _⟩ => ⟨S1x512x512, .f32⟩
  | .local _ .vmem, ⟨5, _⟩ => ⟨S1x512x512, .f32⟩
  | .local _ .vmem, ⟨6, _⟩ => ⟨S1x512x512, .i32⟩
  | .local _ .vmem, ⟨7, _⟩ => ⟨S1x512x512, .i32⟩
  | _, _ => ⟨S64, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev main_c : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_c_1 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S32768x3_S64x512x3 : S32768x3.ShapeCasts S64x512x3
  transposes_S64x512x3_S64x3x512_0_2_1 : S64x512x3.Transposes [0, 2, 1] S64x3x512
  inb_S512x3_S512x1_0_0 : ∀ a, (![0, 0] : Fin 2 → Nat) a + S512x1.size a ≤ S512x3.size a
  h_S512x1 : 0 < S512x1.numel
  inb_S1x3x512_S1x1x512_0_0_0 : ∀ a, (![0, 0, 0] : Fin 3 → Nat) a + S1x1x512.size a ≤ S1x3x512.size a
  h_S1x1x512 : 0 < S1x1x512.numel
  shapeCasts_S1x1x512_S1x512 : S1x1x512.ShapeCasts S1x512
  broadcasts_S512x1_S512x512 : S512x1.Broadcasts S512x512
  broadcasts_S1x512_S512x512 : S1x512.Broadcasts S512x512
  inb_S512x3_S512x1_0_1 : ∀ a, (![0, 1] : Fin 2 → Nat) a + S512x1.size a ≤ S512x3.size a
  inb_S1x3x512_S1x1x512_0_1_0 : ∀ a, (![0, 1, 0] : Fin 3 → Nat) a + S1x1x512.size a ≤ S1x3x512.size a
  inb_S512x3_S512x1_0_2 : ∀ a, (![0, 2] : Fin 2 → Nat) a + S512x1.size a ≤ S512x3.size a
  inb_S1x3x512_S1x1x512_0_2_0 : ∀ a, (![0, 2, 0] : Fin 3 → Nat) a + S1x1x512.size a ≤ S1x3x512.size a
  iota_S512x512_d0_w32 : S512x512.Iotas .tc 32 [0]
  iota_S512x512_d1_w32 : S512x512.Iotas .tc 32 [1]
  inb_S1x512x512_S1x512x512_0_0_0 : ∀ a, (![0, 0, 0] : Fin 3 → Nat) a + S1x512x512.size a ≤ S1x512x512.size a
  h_S1x512x512 : 0 < S1x512x512.numel
  shapeCasts_S1x512x512_S512x512 : S1x512x512.ShapeCasts S512x512
  shapeCasts_S512x512_S1x512x512 : S512x512.ShapeCasts S1x512x512
  natLt_1_32 : 1 < 32
  bcast_S_S64x512x512 : S_.BroadcastsInDim S64x512x512 (![] : Fin 0 → Fin S64x512x512.rank)
  reducesTo_S64x512x512_S64_d1_2 : S64x512x512.ReducesTo [1, 2] S64
  h_S_ : 0 < S_.numel
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S512x512_S512x512x1_0_1 : S512x512.BroadcastsInDim S512x512x1 (![0, 1] : Fin 2 → Fin S512x512x1.rank)
  concatenates_S512x512x1_S512x512x1_S512x512x2_d2 : Shape.Concatenates [S512x512x1, S512x512x1] S512x512x2 2
  bcast_S_S64 : S_.BroadcastsInDim S64 (![] : Fin 0 → Fin S64.rank)
  bcast_S64_S64x1x1x1_0 : S64.BroadcastsInDim S64x1x1x1 (![0] : Fin 1 → Fin S64x1x1x1.rank)
  bcast_S512x512x2_S1x512x512x2_1_2_3 : S512x512x2.BroadcastsInDim S1x512x512x2 (![1, 2, 3] : Fin 3 → Fin S1x512x512x2.rank)
  bcast_S1x512x512x2_S64x512x512x2_0_1_2_3 : S1x512x512x2.BroadcastsInDim S64x512x512x2 (![0, 1, 2, 3] : Fin 4 → Fin S64x512x512x2.rank)
  bcast_S64x1x1x1_S64x512x512x2_0_1_2_3 : S64x1x1x1.BroadcastsInDim S64x512x512x2 (![0, 1, 2, 3] : Fin 4 → Fin S64x512x512x2.rank)
  shapeCasts_S64x512x512x2_S16777216x2 : S64x512x512x2.ShapeCasts S16777216x2
  shapeCasts_S64x512x512_S16777216 : S64x512x512.ShapeCasts S16777216
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x3.size a ≤ S32768x3.size a
  hwx0_0 : ∀ i : grid0.Coords, EltTy.bits .f32 = 32 ∨ (Rect.block (s := S32768x3) S512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x3x512.size a ≤ S64x3x512.size a
  hwx0_1 : ∀ i : grid0.Coords, EltTy.bits .f32 = 32 ∨ (Rect.block (s := S64x3x512) S1x3x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x512x512.size a ≤ S64x512x512.size a
  hwx0_2 : ∀ i : grid0.Coords, EltTy.bits .f32 = 32 ∨ (Rect.block (s := S64x512x512) S1x512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x512x512.size a ≤ S64x512x512.size a
  hwx0_3 : ∀ i : grid0.Coords, EltTy.bits .i32 = 32 ∨ (Rect.block (s := S64x512x512) S1x512x512.size (cc0_transform_3 i) (hinb0_3 i)).WholeWords (EltTy.packing .i32)

variable [Facts₀]

abbrev win0_0 : Pipeline.Window sig grid0 :=
  Pipeline.Window.ofSpec (Memref.whole main_arg1) S512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x3x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2_0) S1x512x512.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v2_1) S1x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S64 : Shape := ⟨1, ![64]⟩
abbrev S32768x3 : Shape := ⟨2, ![32768, 3]⟩
abbrev S64x512x3 : Shape := ⟨3, ![64, 512, 3]⟩
abbrev S64x512x1x3 : Shape := ⟨4, ![64, 512, 1, 3]⟩
abbrev S64x1x512x3 : Shape := ⟨4, ![64, 1, 512, 3]⟩
abbrev S64x512x512x3 : Shape := ⟨4, ![64, 512, 512, 3]⟩
abbrev S_ : Shape := ⟨0, ![]⟩
abbrev S64x512x512 : Shape := ⟨3, ![64, 512, 512]⟩
abbrev S512x512 : Shape := ⟨2, ![512, 512]⟩
abbrev S1x512x512 : Shape := ⟨3, ![1, 512, 512]⟩
abbrev S512 : Shape := ⟨1, ![512]⟩
abbrev S512x1 : Shape := ⟨2, ![512, 1]⟩
abbrev S1x512 : Shape := ⟨2, ![1, 512]⟩
abbrev S512x512x1 : Shape := ⟨3, ![512, 512, 1]⟩
abbrev S512x512x2 : Shape := ⟨3, ![512, 512, 2]⟩
abbrev S64x1x1x1 : Shape := ⟨4, ![64, 1, 1, 1]⟩
abbrev S1x512x512x2 : Shape := ⟨4, ![1, 512, 512, 2]⟩
abbrev S64x512x512x2 : Shape := ⟨4, ![64, 512, 512, 2]⟩
abbrev S16777216x2 : Shape := ⟨2, ![16777216, 2]⟩
abbrev S16777216 : Shape := ⟨1, ![16777216]⟩

abbrev nBuf : Space → Nat
  | .hbm => 47
  | .vmem => 0
  | .smem => 0
  | _ => 0

abbrev bufTy : (tb : Table) → Fin (tcTables nBuf tb) → BufTy
  | .hbm, ⟨0, _⟩ => ⟨S64, .i32⟩
  | .hbm, ⟨1, _⟩ => ⟨S32768x3, .f32⟩
  | .hbm, ⟨2, _⟩ => ⟨S64x512x3, .f32⟩
  | .hbm, ⟨3, _⟩ => ⟨S64x512x1x3, .f32⟩
  | .hbm, ⟨4, _⟩ => ⟨S64x1x512x3, .f32⟩
  | .hbm, ⟨5, _⟩ => ⟨S64x512x512x3, .f32⟩
  | .hbm, ⟨6, _⟩ => ⟨S64x512x512x3, .f32⟩
  | .hbm, ⟨7, _⟩ => ⟨S64x512x512x3, .f32⟩
  | .hbm, ⟨8, _⟩ => ⟨S64x512x512x3, .f32⟩
  | .hbm, ⟨9, _⟩ => ⟨S_, .f32⟩
  | .hbm, ⟨10, _⟩ => ⟨S64x512x512, .f32⟩
  | .hbm, ⟨11, _⟩ => ⟨S64x512x512, .f32⟩
  | .hbm, ⟨12, _⟩ => ⟨S_, .f32⟩
  | .hbm, ⟨13, _⟩ => ⟨S64x512x512, .f32⟩
  | .hbm, ⟨14, _⟩ => ⟨S64x512x512, .i1⟩
  | .hbm, ⟨15, _⟩ => ⟨S512x512, .i32⟩
  | .hbm, ⟨16, _⟩ => ⟨S512x512, .i32⟩
  | .hbm, ⟨17, _⟩ => ⟨S_, .i32⟩
  | .hbm, ⟨18, _⟩ => ⟨S512x512, .i32⟩
  | .hbm, ⟨19, _⟩ => ⟨S512x512, .i32⟩
  | .hbm, ⟨20, _⟩ => ⟨S512x512, .i1⟩
  | .hbm, ⟨21, _⟩ => ⟨S1x512x512, .i1⟩
  | .hbm, ⟨22, _⟩ => ⟨S1x512x512, .i1⟩
  | .hbm, ⟨23, _⟩ => ⟨S64x512x512, .i1⟩
  | .hbm, ⟨24, _⟩ => ⟨S64x512x512, .i1⟩
  | .hbm, ⟨25, _⟩ => ⟨S64x512x512, .i32⟩
  | .hbm, ⟨26, _⟩ => ⟨S_, .i32⟩
  | .hbm, ⟨27, _⟩ => ⟨S64, .i32⟩
  | .hbm, ⟨28, _⟩ => ⟨S512, .i32⟩
  | .hbm, ⟨29, _⟩ => ⟨S512x1, .i32⟩
  | .hbm, ⟨30, _⟩ => ⟨S512x512, .i32⟩
  | .hbm, ⟨31, _⟩ => ⟨S1x512, .i32⟩
  | .hbm, ⟨32, _⟩ => ⟨S512x512, .i32⟩
  | .hbm, ⟨33, _⟩ => ⟨S512x512x1, .i32⟩
  | .hbm, ⟨34, _⟩ => ⟨S512x512x1, .i32⟩
  | .hbm, ⟨35, _⟩ => ⟨S512x512x2, .i32⟩
  | .hbm, ⟨36, _⟩ => ⟨S64, .i32⟩
  | .hbm, ⟨37, _⟩ => ⟨S_, .i32⟩
  | .hbm, ⟨38, _⟩ => ⟨S64, .i32⟩
  | .hbm, ⟨39, _⟩ => ⟨S64, .i32⟩
  | .hbm, ⟨40, _⟩ => ⟨S64x1x1x1, .i32⟩
  | .hbm, ⟨41, _⟩ => ⟨S1x512x512x2, .i32⟩
  | .hbm, ⟨42, _⟩ => ⟨S64x512x512x2, .i32⟩
  | .hbm, ⟨43, _⟩ => ⟨S64x512x512x2, .i32⟩
  | .hbm, ⟨44, _⟩ => ⟨S64x512x512x2, .i32⟩
  | .hbm, ⟨45, _⟩ => ⟨S16777216x2, .i32⟩
  | .hbm, ⟨46, _⟩ => ⟨S16777216, .i1⟩
  | _, _ => ⟨S64, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c_1 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_c_2 : Ref sig .tc := ⟨.hbm, 37, rfl⟩
abbrev main_v31 : Ref sig .tc := ⟨.hbm, 38, rfl⟩
abbrev main_v32 : Ref sig .tc := ⟨.hbm, 39, rfl⟩
abbrev main_v33 : Ref sig .tc := ⟨.hbm, 40, rfl⟩
abbrev main_v34 : Ref sig .tc := ⟨.hbm, 41, rfl⟩
abbrev main_v35 : Ref sig .tc := ⟨.hbm, 42, rfl⟩
abbrev main_v36 : Ref sig .tc := ⟨.hbm, 43, rfl⟩
abbrev main_v37 : Ref sig .tc := ⟨.hbm, 44, rfl⟩
abbrev main_v38 : Ref sig .tc := ⟨.hbm, 45, rfl⟩
abbrev main_v39 : Ref sig .tc := ⟨.hbm, 46, rfl⟩

abbrev nD : Nat := 1
abbrev τ : Topo := Topo.v7x

variable {F : FTy → Type} [FloatOps F]

class Facts₀ : Prop where
  shapeCasts_S32768x3_S64x512x3 : S32768x3.ShapeCasts S64x512x3
  bcast_S64x512x3_S64x512x1x3_0_1_3 : S64x512x3.BroadcastsInDim S64x512x1x3 (![0, 1, 3] : Fin 3 → Fin S64x512x1x3.rank)
  bcast_S64x512x3_S64x1x512x3_0_2_3 : S64x512x3.BroadcastsInDim S64x1x512x3 (![0, 2, 3] : Fin 3 → Fin S64x1x512x3.rank)
  bcast_S64x512x1x3_S64x512x512x3_0_1_2_3 : S64x512x1x3.BroadcastsInDim S64x512x512x3 (![0, 1, 2, 3] : Fin 4 → Fin S64x512x512x3.rank)
  bcast_S64x1x512x3_S64x512x512x3_0_1_2_3 : S64x1x512x3.BroadcastsInDim S64x512x512x3 (![0, 1, 2, 3] : Fin 4 → Fin S64x512x512x3.rank)
  reducesTo_S64x512x512x3_S64x512x512_d3 : S64x512x512x3.ReducesTo [3] S64x512x512
  h_S_ : 0 < S_.numel
  bcast_S_S64x512x512 : S_.BroadcastsInDim S64x512x512 (![] : Fin 0 → Fin S64x512x512.rank)
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S64x512x512_0_1_2 : S1x512x512.BroadcastsInDim S64x512x512 (![0, 1, 2] : Fin 3 → Fin S64x512x512.rank)
  natLt_1_32 : 1 < 32
  reducesTo_S64x512x512_S64_d1_2 : S64x512x512.ReducesTo [1, 2] S64
  bcast_S512_S512x1_0 : S512.BroadcastsInDim S512x1 (![0] : Fin 1 → Fin S512x1.rank)
  bcast_S512x1_S512x512_0_1 : S512x1.BroadcastsInDim S512x512 (![0, 1] : Fin 2 → Fin S512x512.rank)
  bcast_S512_S1x512_1 : S512.BroadcastsInDim S1x512 (![1] : Fin 1 → Fin S1x512.rank)
  bcast_S1x512_S512x512_0_1 : S1x512.BroadcastsInDim S512x512 (![0, 1] : Fin 2 → Fin S512x512.rank)
  bcast_S512x512_S512x512x1_0_1 : S512x512.BroadcastsInDim S512x512x1 (![0, 1] : Fin 2 → Fin S512x512x1.rank)
  concatenates_S512x512x1_S512x512x1_S512x512x2_d2 : Shape.Concatenates [S512x512x1, S512x512x1] S512x512x2 2
  bcast_S_S64 : S_.BroadcastsInDim S64 (![] : Fin 0 → Fin S64.rank)
  bcast_S64_S64x1x1x1_0 : S64.BroadcastsInDim S64x1x1x1 (![0] : Fin 1 → Fin S64x1x1x1.rank)
  bcast_S512x512x2_S1x512x512x2_1_2_3 : S512x512x2.BroadcastsInDim S1x512x512x2 (![1, 2, 3] : Fin 3 → Fin S1x512x512x2.rank)
  bcast_S1x512x512x2_S64x512x512x2_0_1_2_3 : S1x512x512x2.BroadcastsInDim S64x512x512x2 (![0, 1, 2, 3] : Fin 4 → Fin S64x512x512x2.rank)
  bcast_S64x1x1x1_S64x512x512x2_0_1_2_3 : S64x1x1x1.BroadcastsInDim S64x512x512x2 (![0, 1, 2, 3] : Fin 4 → Fin S64x512x512x2.rank)
  shapeCasts_S64x512x512x2_S16777216x2 : S64x512x512x2.ShapeCasts S16777216x2
  shapeCasts_S64x512x512_S16777216 : S64x512x512.ShapeCasts S16777216

variable [Facts₀]

class Facts : Prop extends Facts₀ where

variable [Facts]
-- ==== Proof.PairDistance.lean ====
/-
  Pairwise distances inside each graph, and the cutoff mask, as whole-array functions of the positions.

  The positions are one array of 64 · 512 rows of three coordinates; graph `b` owns rows `b · 512 … b · 512 + 511`.
  For nodes `i`, `j` of graph `b` the squared distance is the sum over the three coordinates of the squared
  difference, the distance its square root on the extended reals, and the pair is kept when the distance is at most
  the cutoff (the float 5.0) and `i ≠ j`. Both programs compute these two arrays; they differ only in how the
  three-term sum is grouped and in how "i ≠ j" is spelt on words, which the small laws at the end settle.
-/
import Idealize.ShloMosaic.PureOps.Ideal
import Idealize.ShloMosaic.PureOps.Ideal.Laws
import Idealize.ShloMosaic.Lib.ValueIdx

noncomputable section

namespace Cert.PairDistance

open Idealize.ShloMosaic Idealize.ShloMosaic.ValueIdx

/-- The positions: 32768 rows of three coordinates. -/
abbrev Positions : Shape := ⟨2, ![32768, 3]⟩
/-- One entry per graph and ordered pair of its nodes. -/
abbrev Pairs : Shape := ⟨3, ![64, 512, 512]⟩

/-- The row of node `i` of graph `b` in the positions array. -/
def node (b : Fin 64) (i : Fin 512) : Fin 32768 := ⟨b.val * 512 + i.val, by have := b.isLt; have := i.isLt; omega⟩

theorem node_val (b : Fin 64) (i : Fin 512) : (node b i).val = b.val * 512 + i.val := rfl

/-- The squared difference of coordinate `k` between nodes `i` and `j` of graph `b`. -/
def sqDiff (X : Positions.Idx → EReal) (b : Fin 64) (i j : Fin 512) (k : Fin 3) : EReal :=
  (X (ix2 (node b i) k) - X (ix2 (node b j) k)) * (X (ix2 (node b i) k) - X (ix2 (node b j) k))

/-- The distance between nodes `i` and `j` of graph `b`: the root of the three squared differences' sum. -/
def distAt (X : Positions.Idx → EReal) (b : Fin 64) (i j : Fin 512) : EReal :=
  Ideal.sqrt (sqDiff X b i j 0 + sqDiff X b i j 1 + sqDiff X b i j 2)

/-- The word that says `i ≠ j`, as both programs compute it from 32-bit counters. -/
def offDiagonal (i j : Fin 512) : BitVec 1 := IntOp.cmpi .ne (BitVec.ofNat 32 i.val) (BitVec.ofNat 32 j.val)

/-- The pair `(i, j)` of graph `b` is kept: within the cutoff, and not a node with itself. -/
def keptAt (X : Positions.Idx → EReal) (b : Fin 64) (i j : Fin 512) : BitVec 1 :=
  IntOp.andi (FloatOps.cmpf (F := Ideal) .ole (distAt X b i j) (Ideal.ofBits .f32 0x40A00000#32)) (offDiagonal i j)

/-- The distances, as an array. -/
def dist (X : Positions.Idx → EReal) : Pairs.Idx → EReal := fun y => distAt X (y 0) (y 1) (y 2)
/-- The kept pairs, as an array of bits. -/
def kept (X : Positions.Idx → EReal) : Pairs.Idx → BitVec 1 := fun y => keptAt X (y 0) (y 1) (y 2)

theorem dist_ix3 (X : Positions.Idx → EReal) (b : Fin 64) (i j : Fin 512) : dist X (ix3 b i j) = distAt X b i j := rfl
theorem kept_ix3 (X : Positions.Idx → EReal) (b : Fin 64) (i j : Fin 512) : kept X (ix3 b i j) = keptAt X b i j := rfl

/-! ## The small laws -/

/-- Accumulating three terms from the float zero, left to right, is their sum: addition on the extended reals is
    associative and zero is its unit, whatever the terms (no finiteness is needed). -/
theorem acc_three (s0 s1 s2 : EReal) : ((Ideal.ofBits .f32 0x00000000#32 + s0) + s1) + s2 = s0 + s1 + s2 := by
  rw [Ideal.ofBits_zero_f32, zero_add]

/-- A sum over the three coordinates started from the float zero is the same sum. -/
theorem sum_three (s : Fin 3 → EReal) : Ideal.ofBits .f32 0x00000000#32 + ∑ k : Fin 3, s k = s 0 + s 1 + s 2 := by
  rw [Ideal.ofBits_zero_f32, zero_add, Fin.sum_univ_three]

/-- A bit widened to 32 bits is non-zero exactly when the bit is set. -/
theorem ne_zero_widen : ∀ x : BitVec 1, IntOp.cmpi .ne (x.setWidth 32) 0#32 = x := by decide

/-- "Not (a + 0 = b)" is "a ≠ b" on 32-bit words. -/
theorem not_eq_add_zero (a b : BitVec 32) : ~~~(IntOp.cmpi .eq (IntOp.addi a 0#32) b) = IntOp.cmpi .ne a b := by
  have h0 : IntOp.addi a 0#32 = a := by simp [IntOp.addi]
  rw [h0]
  show ~~~(BitVec.ofBool (a == b)) = BitVec.ofBool (a != b)
  rw [bne]
  cases (a == b) <;> rfl

end Cert.PairDistance

end
-- ==== Proof.ReferencePairs.lean ====
/-
  The reference computes the two arrays of `PairDistance`.

  It reshapes the positions to [64, 512, 3], broadcasts them along a new axis once as rows and once as columns, and
  subtracts, squares and sums over the coordinate axis: entry `(b, i, j, k)` of the difference reads row
  `b · 512 + i` and row `b · 512 + j` of the positions at coordinate `k` (the reshape's row-major arithmetic). The sum
  over `k` starts from the float zero; the mask's "not on the diagonal" is "not (i + 0 = j)" on 32-bit counters.
-/
import proofs.«140292_j72224170049741_2_alg».proof.Proof.Gen.ReferenceIdeal.Read
import proofs.«140292_j72224170049741_2_alg».proof.Proof.PairDistance
import Idealize.ShloMosaic.Lib.ValueIdx

noncomputable section

namespace Cert.ReferencePairs

open Cert.ReferenceIdeal Cert.ReferenceIdeal.Read Cert.PairDistance
open Idealize.ShloMosaic Idealize.ShloMosaic.ValueIdx

/-- The minuend of entry `(b, i, j, k)` is the position of node `i` of graph `b` at coordinate `k`. -/
theorem minuend_row (b : Fin 64) (i j : Fin 512) (k : Fin 3) :
    idx_main_v0 (idx_main_v1 (idx_main_v3 (idx_main_v7 (ix3 b i j) k))) = ix2 (node b i) k := by
  funext a; apply Fin.ext
  match a with
  | ⟨0, _⟩ => show ((b.val * 512 + i.val) * 3 + k.val) / 3 = b.val * 512 + i.val; have := k.isLt; omega
  | ⟨1, _⟩ => show ((b.val * 512 + i.val) * 3 + k.val) % 3 = k.val; have := k.isLt; omega

/-- The subtrahend of entry `(b, i, j, k)` is the position of node `j` of graph `b` at coordinate `k`. -/
theorem subtrahend_row (b : Fin 64) (i j : Fin 512) (k : Fin 3) :
    idx_main_v0 (idx_main_v2 (idx_main_v4 (idx_main_v7 (ix3 b i j) k))) = ix2 (node b j) k := by
  funext a; apply Fin.ext
  match a with
  | ⟨0, _⟩ => show ((b.val * 512 + j.val) * 3 + k.val) / 3 = b.val * 512 + j.val; have := k.isLt; omega
  | ⟨1, _⟩ => show ((b.val * 512 + j.val) * 3 + k.val) % 3 = k.val; have := k.isLt; omega

/-- One squared difference of the reference's is the specification's. -/
theorem square_at (X : (⟨S32768x3, .f32⟩ : BufTy).Contents (Elt Ideal)) (b : Fin 64) (i j : Fin 512) (k : Fin 3) :
    val_main_v6 (F := Ideal) X (idx_main_v7 (ix3 b i j) k) = sqDiff X b i j k := by
  rw [val_main_v6_apply, val_main_v5_apply, val_main_v3_apply, val_main_v1_apply, val_main_v0_apply,
    val_main_v4_apply, val_main_v2_apply, val_main_v0_apply, minuend_row, subtrahend_row]
  rfl

/-- The reference's distances are the specification's. -/
theorem dist_eq (X : (⟨S32768x3, .f32⟩ : BufTy).Contents (Elt Ideal)) : val_main_v8 (F := Ideal) X = dist X := by
  funext y
  obtain ⟨b, i, j, rfl⟩ : ∃ (b : Fin 64) (i j : Fin 512), y = ix3 b i j := ⟨y 0, y 1, y 2, eq_ix3 y⟩
  rw [dist_ix3, val_main_v8_apply, val_main_v7_apply, val_main_cst_apply]
  simp only [Ideal.ofBits_def, Ideal.hostUnary_sqrt_def]
  rw [sum_three, square_at, square_at, square_at]
  rfl

/-- The reference's mask is the specification's. -/
theorem kept_eq (X : (⟨S32768x3, .f32⟩ : BufTy).Contents (Elt Ideal)) : val_main_v19 (F := Ideal) X = kept X := by
  funext y
  obtain ⟨b, i, j, rfl⟩ : ∃ (b : Fin 64) (i j : Fin 512), y = ix3 b i j := ⟨y 0, y 1, y 2, eq_ix3 y⟩
  rw [kept_ix3, val_main_v19_apply, val_main_v10_apply, congrFun (dist_eq X) (ix3 b i j), dist_ix3, val_main_v9_apply,
    val_main_cst_0_apply, val_main_v18_apply, val_main_v17_apply, val_main_v16_apply, val_main_v15_apply,
    val_main_v14_apply, val_main_v11_apply, val_main_v13_apply, val_main_c_apply, val_main_v12_apply, not_eq_add_zero]
  rfl

end Cert.ReferencePairs

end
-- ==== Proof.BodyPairs.lean ====
/-
  What the kernel's body leaves in its two output tiles, entry by entry.

  At one grid point the body holds a [512, 3] tile of positions (one graph's nodes) and the same graph's positions
  transposed, [1, 3, 512]. For each coordinate `k` it loads column `k` of the first as a [512, 1] column and row `k` of
  the second as a [1, 512] row, broadcasts both to [512, 512] — entry `(i, j)` then holds node `i`'s coordinate and
  node `j`'s — subtracts, squares, and accumulates from the float zero, left to right; the distance tile is the
  square root, the mask tile the comparison with the cutoff and with "row counter ≠ column counter", widened to
  32 bits. Both tiles gain a leading unit axis before they are stored.
-/
import proofs.«140292_j72224170049741_2_alg».proof.Proof.Gen.KernelIdeal.Frame
import proofs.«140292_j72224170049741_2_alg».proof.Proof.PairDistance
import Idealize.ShloMosaic.Lib.ValueIdx
import Idealize.ShloMosaic.Lib.ValueLayout
import Idealize.ShloMosaic.Lib.Pipeline.Value

noncomputable section

namespace Cert.BodyPairs

open Cert.KernelIdeal Cert.KernelIdeal.Gen Cert.PairDistance
open Idealize.ShloMosaic Idealize.ShloMosaic.ValueIdx

/-! ## Reading the layout operations and the loads at coordinates -/

/-- An `[a, 1]` column broadcast to `[a, b]` reads, at `(p, c)`, the column at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A square root at an index is the root of the element. -/
theorem sqrt_apply {s : Shape} {φ : FTy} (a : FVec Ideal s φ) (i : s.Idx) : sqrt a i = Ideal.sqrt (a i) := rfl
/-- A bitwise and at an index is the and of the elements. -/
theorem andi_apply {s : Shape} {w : Nat} (x y : IVec s w) (i : s.Idx) : andi x y i = IntOp.andi (x i) (y i) := rfl
/-- An integer comparison at an index compares the elements. -/
theorem cmpi_apply {s : Shape} {w : Nat} (p : CmpIPredicate) (x y : IVec s w) (i : s.Idx) :
    cmpi p x y i = IntOp.cmpi p (x i) (y i) := rfl

/-- Column `o` of the positions tile, loaded as a [512, 1] column, reads the tile at `(i, o)`. -/
theorem ld_column (x0 : Vec Ideal S512x3 .f32) (o : Nat) (ho : o < 3)
    (inb : ∀ a, (![0, o] : Fin 2 → Nat) a + S512x1.size a ≤ S512x3.size a) (i : Fin 512) :
    View.ld x0 (Rect.unit (s := S512x3) ![0, o] S512x1.size inb) (ix2 i (0 : Fin 1)) = x0 (ix2 i (⟨o, ho⟩ : Fin 3)) := by
  refine congrArg x0 (funext fun a => Fin.ext ?_)
  match a with
  | ⟨0, _⟩ => show 0 + 1 * i.val = i.val; omega
  | ⟨1, _⟩ => show o + 1 * 0 = o; omega

/-- Row `o` of the transposed tile, loaded as a [1, 1, 512] row, reads the tile at `(0, o, j)`. -/
theorem ld_line (x1 : Vec Ideal S1x3x512 .f32) (o : Nat) (ho : o < 3)
    (inb : ∀ a, (![0, o, 0] : Fin 3 → Nat) a + S1x1x512.size a ≤ S1x3x512.size a) (j : Fin 512) :
    View.ld x1 (Rect.unit (s := S1x3x512) ![0, o, 0] S1x1x512.size inb) (ix3 (0 : Fin 1) (0 : Fin 1) j)
      = x1 (ix3 (0 : Fin 1) (⟨o, ho⟩ : Fin 3) j) := by
  refine congrArg x1 (funext fun a => Fin.ext ?_)
  match a with
  | ⟨0, _⟩ => show 0 + 1 * 0 = 0; omega
  | ⟨1, _⟩ => show o + 1 * 0 = o; omega
  | ⟨2, _⟩ => show 0 + 1 * j.val = j.val; omega

/-! ## The payloads at an entry -/

/-- The distance the body computes for entry `(i, j)` from its two tiles. -/
def tileDist (x0 : Vec Ideal S512x3 .f32) (x1 : Vec Ideal S1x3x512 .f32) (i j : Fin 512) : EReal :=
  Ideal.sqrt ((x0 (ix2 i (0 : Fin 3)) - x1 (ix3 (0 : Fin 1) (0 : Fin 3) j)) * (x0 (ix2 i (0 : Fin 3)) - x1 (ix3 (0 : Fin 1) (0 : Fin 3) j))
    + (x0 (ix2 i (1 : Fin 3)) - x1 (ix3 (0 : Fin 1) (1 : Fin 3) j)) * (x0 (ix2 i (1 : Fin 3)) - x1 (ix3 (0 : Fin 1) (1 : Fin 3) j))
    + (x0 (ix2 i (2 : Fin 3)) - x1 (ix3 (0 : Fin 1) (2 : Fin 3) j)) * (x0 (ix2 i (2 : Fin 3)) - x1 (ix3 (0 : Fin 1) (2 : Fin 3) j)))

/-- The [512, 512] tile of distances, from three loaded columns and three loaded rows: at `(i, j)` the root of the
    three squared differences accumulated from zero, which is the root of their sum. -/
theorem distances_apply (v1 : Vec Ideal S512x1 .f32) (v2 : Vec Ideal S1x1x512 .f32) (v9 : Vec Ideal S512x1 .f32)
    (v10 : Vec Ideal S1x1x512 .f32) (v17 : Vec Ideal S512x1 .f32) (v18 : Vec Ideal S1x1x512 .f32) (i j : Fin 512) :
    k0_pay2 (F := Ideal) v1 v2 v9 v10 v17 v18 (ix2 i j)
      = Ideal.sqrt ((v1 (ix2 i (0 : Fin 1)) - v2 (ix3 (0 : Fin 1) (0 : Fin 1) j)) * (v1 (ix2 i (0 : Fin 1)) - v2 (ix3 (0 : Fin 1) (0 : Fin 1) j))
        + (v9 (ix2 i (0 : Fin 1)) - v10 (ix3 (0 : Fin 1) (0 : Fin 1) j)) * (v9 (ix2 i (0 : Fin 1)) - v10 (ix3 (0 : Fin 1) (0 : Fin 1) j))
        + (v17 (ix2 i (0 : Fin 1)) - v18 (ix3 (0 : Fin 1) (0 : Fin 1) j)) * (v17 (ix2 i (0 : Fin 1)) - v18 (ix3 (0 : Fin 1) (0 : Fin 1) j))) := by
  have hc (v : Vec Ideal S512x1 .f32) :
      broadcastTo S512x512 v broadcasts_S512x1_S512x512 (ix2 i j) = v (ix2 i (0 : Fin 1)) :=
    broadcastTo_a1_ab_apply v _ i j
  have hr (v : Vec Ideal S1x1x512 .f32) :
      broadcastTo S512x512 (shapeCast S1x512 v shapeCasts_S1x1x512_S1x512) broadcasts_S1x512_S512x512 (ix2 i j)
        = v (ix3 (0 : Fin 1) (0 : Fin 1) j) :=
    (broadcastTo_1b_ab_apply _ _ i j).trans (shapeCast_1ab_ab_apply v _ (0 : Fin 1) j)
  unfold k0_pay2
  simp only [sqrt_apply, addf_apply, mulf_apply, subf_apply, broadcast_apply, hc, hr]
  exact congrArg Ideal.sqrt (acc_three _ _ _)

/-- The distance tile as stored, with its leading unit axis: entry `(u, i, j)` is the body's distance for `(i, j)`. -/
theorem out_dist_apply (x0 : Vec Ideal S512x3 .f32) (x1 : Vec Ideal S1x3x512 .f32) (u : Fin 1) (i j : Fin 512) :
    out0_2 (F := Ideal) x0 x1 (ix3 u i j) = tileDist x0 x1 i j := by
  have hz : (![0, 0, 0] : Fin 3 → Nat) = fun _ => 0 := funext fun a => by fin_cases a <;> rfl
  unfold out0_2
  rw [View.canon_unit_zero hz]
  unfold k0_pay4
  refine (shapeCast_ab_1ab_apply _ _ u i j).trans ?_
  rw [distances_apply, ld_column x0 0 (by omega), ld_column x0 1 (by omega), ld_column x0 2 (by omega),
    ld_line x1 0 (by omega), ld_line x1 1 (by omega), ld_line x1 2 (by omega)]
  rfl

/-- The mask tile as stored: entry `(u, i, j)` is the kept bit for `(i, j)` — within the cutoff and off the diagonal —
    widened to 32 bits. -/
theorem out_kept_apply (x0 : Vec Ideal S512x3 .f32) (x1 : Vec Ideal S1x3x512 .f32) (u : Fin 1) (i j : Fin 512) :
    out0_3 (F := Ideal) x0 x1 (ix3 u i j)
      = (IntOp.andi (FloatOps.cmpf (F := Ideal) .ole (tileDist x0 x1 i j) (Ideal.ofBits .f32 0x40A00000#32))
          (offDiagonal i j)).setWidth 32 := by
  have hz : (![0, 0, 0] : Fin 3 → Nat) = fun _ => 0 := funext fun a => by fin_cases a <;> rfl
  unfold out0_3
  rw [View.canon_unit_zero hz]
  unfold k0_pay1
  refine (shapeCast_ab_1ab_apply _ _ u i j).trans ?_
  unfold k0_pay3
  have hrow : iota .tc S512x512 32 [0] iota_S512x512_d0_w32 (ix2 i j) = BitVec.ofNat 32 i.val :=
    iota_single_apply .tc S512x512 32 0 iota_S512x512_d0_w32 (ix2 i j)
  have hcol : iota .tc S512x512 32 [1] iota_S512x512_d1_w32 (ix2 i j) = BitVec.ofNat 32 j.val :=
    iota_single_apply .tc S512x512 32 1 iota_S512x512_d1_w32 (ix2 i j)
  simp only [extui_apply, andi_apply, cmpi_apply, cmpf_apply, broadcast_apply]
  rw [hrow, hcol, distances_apply, ld_column x0 0 (by omega), ld_column x0 1 (by omega), ld_column x0 2 (by omega),
    ld_line x1 0 (by omega), ld_line x1 1 (by omega), ld_line x1 2 (by omega)]
  rfl

end Cert.BodyPairs

end
-- ==== Proof.KernelArrays.lean ====
/-
  The kernel's two output arrays after the run are the arrays of `PairDistance`.

  Grid point `t` works on graph `t`: its positions tile is rows `512 t … 512 t + 511` of the positions, its
  transposed tile is slab `t` of the positions reshaped to [64, 512, 3] and transposed to [64, 3, 512] by the host
  before the region — entry `(t, k, j)` of which is the position of node `j` of graph `t` at coordinate `k` — and
  it writes slab `t` of each output. So what point `t` writes back is slab `t` of the distances (of the kept bits,
  widened); the 64 slabs cover both arrays.
-/
import proofs.«140292_j72224170049741_2_alg».proof.Proof.Gen.KernelIdeal.Frame
import proofs.«140292_j72224170049741_2_alg».proof.Proof.PairDistance
import proofs.«140292_j72224170049741_2_alg».proof.Proof.BodyPairs
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelArrays

open Cert.KernelIdeal Cert.KernelIdeal.Gen Cert.PairDistance Cert.BodyPairs
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ)

/-- The positions as launched, on core `c`. -/
abbrev positions (c : Dev nD) : S32768x3.Idx → EReal := m ((c : Thread nD τ).loc main_arg1)

/-- The graph a grid point works on. -/
def graph (t : Fin cfg0.N) : Fin 64 := t.cast N_0

theorem graph_val (t : Fin cfg0.N) : (graph t).val = t.val := rfl

/-- The printed index maps, decided over the grid: every window's block index at point `t` is `t` on the graph
    axis and zero elsewhere. -/
theorem slab_facts : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 3) = t.val ∧ win0_2.index t (1 : Fin 3) = 0 ∧ win0_2.index t (2 : Fin 3) = 0
    ∧ win0_3.index t (0 : Fin 3) = t.val ∧ win0_3.index t (1 : Fin 3) = 0 ∧ win0_3.index t (2 : Fin 3) = 0 :=
  (by decide +kernel : ∀ t : Fin grid0.N, _)

/-- What the host hands the second window: the positions reshaped per graph and transposed. -/
theorem transposed_entry (c : Dev nD) :
    (V m c main_v1 : S64x3x512.Idx → EReal)
      = transpose S64x3x512 [0, 2, 1] (shapeCast S64x512x3 (m ((c : Thread nD τ).loc main_arg1)) shapeCasts_S32768x3_S64x512x3)
          transposes_S64x512x3_S64x3x512_0_2_1 := by
  show StableHlo.after hostOps0 (fun b => m (c, b)) (Proc.devRef .tc main_v1) = _
  after_results
  rfl

/-- Entry `(b, k, j)` of it is the position of node `j` of graph `b` at coordinate `k`. -/
theorem transposed_apply (c : Dev nD) (b : Fin 64) (k : Fin 3) (j : Fin 512) :
    (V m c main_v1 : S64x3x512.Idx → EReal) (ix3 b k j) = positions m c (ix2 (node b j) k) := by
  rw [transposed_entry, transpose_ix3_021_apply]
  exact shapeCast_apply _ shapeCasts_S32768x3_S64x512x3 (ix3 b j k) (ix2 (node b j) k)
    (by rw [Shape.rowMajor_val_two, Shape.rowMajor_val_three]; rfl)

/-- The positions tile at point `t`: entry `(i, k)` is the position of node `i` of graph `t` at coordinate `k`. -/
theorem positions_tile (c : Dev nD) (t : Fin cfg0.N) (i : Fin 512) (k : Fin 3) :
    (iblk m c 0 t : Vec Ideal S512x3 .f32) (ix2 i k) = positions m c (ix2 (node (graph t) i) k) := by
  obtain ⟨e0, e1, -⟩ := slab_facts t
  unfold iblk
  rw [View.read_apply]
  show V m c main_arg1 _ = _
  rw [V_main_arg1]
  refine congrArg (m ((c : Thread nD τ).loc main_arg1)) (funext fun a => Fin.ext ?_)
  match a with
  | ⟨0, _⟩ => show win0_0.index t (0 : Fin 2) * 512 + 1 * i.val = t.val * 512 + i.val; rw [e0]; omega
  | ⟨1, _⟩ => show win0_0.index t (1 : Fin 2) * 3 + 1 * k.val = k.val; rw [e1]; omega

/-- The transposed tile at point `t`: entry `(0, k, j)` is the position of node `j` of graph `t` at coordinate `k`. -/
theorem transposed_tile (c : Dev nD) (t : Fin cfg0.N) (k : Fin 3) (j : Fin 512) :
    (iblk m c 1 t : Vec Ideal S1x3x512 .f32) (ix3 (0 : Fin 1) k j) = positions m c (ix2 (node (graph t) j) k) := by
  obtain ⟨-, -, e0, e1, e2, -⟩ := slab_facts t
  unfold iblk
  rw [View.read_apply]
  show V m c main_v1 _ = _
  refine Eq.trans (congrArg (V m c main_v1) (funext fun a => Fin.ext ?_)) (transposed_apply m c (graph t) k j)
  match a with
  | ⟨0, _⟩ => show win0_1.index t (0 : Fin 3) * 1 + 1 * 0 = t.val; rw [e0]; omega
  | ⟨1, _⟩ => show win0_1.index t (1 : Fin 3) * 3 + 1 * k.val = k.val; rw [e1]; omega
  | ⟨2, _⟩ => show win0_1.index t (2 : Fin 3) * 512 + 1 * j.val = j.val; rw [e2]; omega

/-- The body's distance for `(i, j)` at point `t` is the distance between nodes `i` and `j` of graph `t`. -/
theorem tile_dist (c : Dev nD) (t : Fin cfg0.N) (i j : Fin 512) :
    tileDist (iblk m c 0 t) (iblk m c 1 t) i j = distAt (positions m c) (graph t) i j := by
  unfold tileDist distAt sqDiff
  rw [positions_tile m c t i 0, positions_tile m c t i 1, positions_tile m c t i 2,
    transposed_tile m c t 0 j, transposed_tile m c t 1 j, transposed_tile m c t 2 j]

/-! ## The distances -/

/-- Where entry `(u, i, j)` of point `t`'s block sits in the distance array: slab `t`. -/
theorem slab_dist (t : Fin cfg0.N) (u : Fin 1) (i j : Fin 512) :
    (((cfg0.win 2).blk t).view.emb (ix3 u i j) : S64x512x512.Idx) = ix3 (graph t) i j := by
  obtain ⟨-, -, -, -, -, e0, e1, e2, -⟩ := slab_facts t
  funext a; apply Fin.ext
  match a with
  | ⟨0, _⟩ => show win0_2.index t (0 : Fin 3) * 1 + 1 * u.val = t.val; rw [e0]; omega
  | ⟨1, _⟩ => show win0_2.index t (1 : Fin 3) * 512 + 1 * i.val = i.val; rw [e1]; omega
  | ⟨2, _⟩ => show win0_2.index t (2 : Fin 3) * 512 + 1 * j.val = j.val; rw [e2]; omega

/-- What point `t` writes back to the distance array is slab `t` of the distances. -/
theorem flushed_dist (c : Dev nD) (t : Fin cfg0.N) :
    (dats m 0 c).flushed 2 t = ((cfg0.win 2).blk t).view.read (Elt Ideal) (dist (positions m c)) := by
  show (cfg0.win 2).cut (grid0.coords t) ((dats m 0 c).after 2 t) = _
  rw [after0_2]
  show (out0_2 (F := Ideal) (iblk m c 0 t) (iblk m c 1 t) : S1x512x512.Idx → EReal)
    = fun y => dist (positions m c) (((cfg0.win 2).blk t).view.emb y)
  funext y
  obtain ⟨u, i, j, rfl⟩ : ∃ (u : Fin 1) (i j : Fin 512), y = ix3 u i j := ⟨y 0, y 1, y 2, eq_ix3 y⟩
  rw [slab_dist, dist_ix3]
  exact (out_dist_apply _ _ u i j).trans (tile_dist m c t i j)

/-- An index of the distance array is in point `t`'s block iff each coordinate is in the block's range. -/
theorem mem_slab_dist (t : Fin cfg0.N) (y : S64x512x512.Idx) :
    y ∈ ((cfg0.win 2).blk t).view.set ↔ ∀ a : Fin 3, win0_2.index t a * S1x512x512.size a ≤ (y a).val
      ∧ (y a).val < win0_2.index t a * S1x512x512.size a + S1x512x512.size a := by
  show y ∈ ((View.whole main_v2_0).slice (win0_2.rect t)).set ↔ _
  rw [View.set_slice_whole, Rect.mem_set_unit]
  exact Iff.rfl

/-- THE DISTANCE ARRAY after the run. -/
theorem final_dist (c : Dev nD) : (dats m 0 c).arrAt 2 cfg0.N = dist (positions m c) :=
  (dats m 0 c).arrAt_eq_of_cover 2 (dist (positions m c)) (fun t _ => flushed_dist m c t) fun y => by
    have h0 : (y 0).val < 64 := (y 0).isLt
    have h1 : (y 1).val < 512 := (y 1).isLt
    have h2 : (y 2).val < 512 := (y 2).isLt
    let t : Fin cfg0.N := (⟨(y 0).val, h0⟩ : Fin 64).cast N_0.symm
    obtain ⟨-, -, -, -, -, e0, e1, e2, -⟩ := slab_facts t
    have ht : t.val = (y 0).val := rfl
    refine ⟨t, flush0_2 t, ?_⟩
    rw [mem_slab_dist]
    intro a
    match a with
    | ⟨0, _⟩ => show win0_2.index t (0 : Fin 3) * 1 ≤ (y 0).val ∧ (y 0).val < win0_2.index t (0 : Fin 3) * 1 + 1; rw [e0, ht]; omega
    | ⟨1, _⟩ => show win0_2.index t (1 : Fin 3) * 512 ≤ (y 1).val ∧ (y 1).val < win0_2.index t (1 : Fin 3) * 512 + 512; rw [e1]; omega
    | ⟨2, _⟩ => show win0_2.index t (2 : Fin 3) * 512 ≤ (y 2).val ∧ (y 2).val < win0_2.index t (2 : Fin 3) * 512 + 512; rw [e2]; omega

/-! ## The kept bits, widened -/

/-- The kept bits as the kernel stores them: 32-bit words. -/
def keptWide (X : Positions.Idx → EReal) : S64x512x512.Idx → BitVec 32 := fun y => (kept X y).setWidth 32

/-- Where entry `(u, i, j)` of point `t`'s block sits in the mask array: slab `t`. -/
theorem slab_kept (t : Fin cfg0.N) (u : Fin 1) (i j : Fin 512) :
    (((cfg0.win 3).blk t).view.emb (ix3 u i j) : S64x512x512.Idx) = ix3 (graph t) i j := by
  obtain ⟨-, -, -, -, -, -, -, -, e0, e1, e2⟩ := slab_facts t
  funext a; apply Fin.ext
  match a with
  | ⟨0, _⟩ => show win0_3.index t (0 : Fin 3) * 1 + 1 * u.val = t.val; rw [e0]; omega
  | ⟨1, _⟩ => show win0_3.index t (1 : Fin 3) * 512 + 1 * i.val = i.val; rw [e1]; omega
  | ⟨2, _⟩ => show win0_3.index t (2 : Fin 3) * 512 + 1 * j.val = j.val; rw [e2]; omega

/-- What point `t` writes back to the mask array is slab `t` of the widened kept bits. -/
theorem flushed_kept (c : Dev nD) (t : Fin cfg0.N) :
    (dats m 0 c).flushed 3 t = ((cfg0.win 3).blk t).view.read (Elt Ideal) (keptWide (positions m c)) := by
  show (cfg0.win 3).cut (grid0.coords t) ((dats m 0 c).after 3 t) = _
  rw [after0_3]
  show (out0_3 (F := Ideal) (iblk m c 0 t) (iblk m c 1 t) : S1x512x512.Idx → BitVec 32)
    = fun y => keptWide (positions m c) (((cfg0.win 3).blk t).view.emb y)
  funext y
  obtain ⟨u, i, j, rfl⟩ : ∃ (u : Fin 1) (i j : Fin 512), y = ix3 u i j := ⟨y 0, y 1, y 2, eq_ix3 y⟩
  rw [slab_kept]
  refine (out_kept_apply _ _ u i j).trans ?_
  rw [tile_dist m c t i j]
  rfl

/-- An index of the mask array is in point `t`'s block iff each coordinate is in the block's range. -/
theorem mem_slab_kept (t : Fin cfg0.N) (y : S64x512x512.Idx) :
    y ∈ ((cfg0.win 3).blk t).view.set ↔ ∀ a : Fin 3, win0_3.index t a * S1x512x512.size a ≤ (y a).val
      ∧ (y a).val < win0_3.index t a * S1x512x512.size a + S1x512x512.size a := by
  show y ∈ ((View.whole main_v2_1).slice (win0_3.rect t)).set ↔ _
  rw [View.set_slice_whole, Rect.mem_set_unit]
  exact Iff.rfl

/-- THE MASK ARRAY after the run. -/
theorem final_kept (c : Dev nD) : (dats m 0 c).arrAt 3 cfg0.N = keptWide (positions m c) :=
  (dats m 0 c).arrAt_eq_of_cover 3 (keptWide (positions m c)) (fun t _ => flushed_kept m c t) fun y => by
    have h0 : (y 0).val < 64 := (y 0).isLt
    have h1 : (y 1).val < 512 := (y 1).isLt
    have h2 : (y 2).val < 512 := (y 2).isLt
    let t : Fin cfg0.N := (⟨(y 0).val, h0⟩ : Fin 64).cast N_0.symm
    obtain ⟨-, -, -, -, -, -, -, -, e0, e1, e2⟩ := slab_facts t
    have ht : t.val = (y 0).val := rfl
    refine ⟨t, flush0_3 t, ?_⟩
    rw [mem_slab_kept]
    intro a
    match a with
    | ⟨0, _⟩ => show win0_3.index t (0 : Fin 3) * 1 ≤ (y 0).val ∧ (y 0).val < win0_3.index t (0 : Fin 3) * 1 + 1; rw [e0, ht]; omega
    | ⟨1, _⟩ => show win0_3.index t (1 : Fin 3) * 512 ≤ (y 1).val ∧ (y 1).val < win0_3.index t (1 : Fin 3) * 512 + 512; rw [e1]; omega
    | ⟨2, _⟩ => show win0_3.index t (2 : Fin 3) * 512 ≤ (y 2).val ∧ (y 2).val < win0_3.index t (2 : Fin 3) * 512 + 512; rw [e2]; omega

end Cert.KernelArrays

end
-- ==== Proof.KernelRun.lean ====
/-
  The kernel program's run, with every result named.

  After the region the host turns the stored 32-bit mask back into bits ("≠ 0"), flattens it, counts it per graph,
  and builds the table of candidate edges from counters alone. A bit widened to 32 bits is non-zero exactly when it
  is set, so the host's bits are the kept bits; the flattening and the count are then the same operations the
  reference applies to the same bits, and the edge table depends on no input at all.
-/
import proofs.«140292_j72224170049741_2_alg».proof.Proof.Gen.KernelIdeal.Frame
import proofs.«140292_j72224170049741_2_alg».proof.Proof.PairDistance
import proofs.«140292_j72224170049741_2_alg».proof.Proof.KernelArrays
import Idealize.ShloMosaic.Lib.Pipeline.Value
import Idealize.ShloMosaic.Lib.StableHlo.Run

set_option maxRecDepth 16384

noncomputable section

namespace Cert.KernelRun

open Cert.KernelIdeal Cert.KernelIdeal.Gen Cert.PairDistance Cert.KernelArrays
open Idealize.ShloMosaic Idealize.ShloMosaic.TcCoe Idealize.ShloMosaic.ValueIdx
open Idealize.SL Idealize.SL.Sem
open Idealize.ShloMosaic.Pipeline (Dat Cfg Window)

variable (m : (ℓ : Loc nD τ sig) → Buf (Elt Ideal) ℓ) (ρ : Dev nD → PrngReg)

/-- The flattened mask, from the kept bits. -/
def maskOf (K : S64x512x512.Idx → BitVec 1) : S16777216.Idx → BitVec 1 :=
  shapeCast S16777216 K shapeCasts_S64x512x512_S16777216

/-- The number of kept pairs per graph, from the kept bits. -/
def countOf (K : S64x512x512.Idx → BitVec 1) : S64.Idx → BitVec 32 :=
  Host.reduce IntOp.addi (extui 32 K natLt_1_32) (constantI S_ 32 0#32) reducesTo_S64x512x512_S64_d1_2 h_S_

/-- The table of candidate edges: for graph `b` and nodes `i`, `j` the pair of global node numbers
    `(b · 512 + i, b · 512 + j)`, built from counters alone. -/
def edgeTable : S16777216x2.Idx → BitVec 32 :=
  shapeCast S16777216x2 (addi (broadcastInDim S64x512x512x2 ![0, 1, 2, 3] bcast_S1x512x512x2_S64x512x512x2_0_1_2_3 (broadcastInDim S1x512x512x2 ![1, 2, 3] bcast_S512x512x2_S1x512x512x2_1_2_3 (concatenate S512x512x2 2 [⟨S512x512x1, (broadcastInDim S512x512x1 ![0, 1] bcast_S512x512_S512x512x1_0_1 (broadcastInDim S512x512 ![0, 1] bcast_S512x1_S512x512_0_1 (broadcastInDim S512x1 ![0] bcast_S512_S512x1_0 (iotaInDim S512 32 0))))⟩, ⟨S512x512x1, (broadcastInDim S512x512x1 ![0, 1] bcast_S512x512_S512x512x1_0_1 (broadcastInDim S512x512 ![0, 1] bcast_S1x512_S512x512_0_1 (broadcastInDim S1x512 ![1] bcast_S512_S1x512_1 (iotaInDim S512 32 0))))⟩] concatenates_S512x512x1_S512x512x1_S512x512x2_d2))) (broadcastInDim S64x512x512x2 ![0, 1, 2, 3] bcast_S64x1x1x1_S64x512x512x2_0_1_2_3 (broadcastInDim S64x1x1x1 ![0] bcast_S64_S64x1x1x1_0 (muli (iotaInDim S64 32 0) (broadcastInDim S64 ![] bcast_S_S64 (constantI S_ 32 512#32)))))) shapeCasts_S64x512x512x2_S16777216x2

/-- "≠ 0" of the widened kept bits gives the kept bits back. -/
theorem narrow_kept (X : Positions.Idx → EReal) :
    cmpi .ne (keptWide X) (broadcastInDim S64x512x512 ![] bcast_S_S64x512x512 (constantI S_ 32 0#32)) = kept X :=
  funext fun y => ne_zero_widen (kept X y)

/-- The mask array as the lines after the region find it. -/
theorem mask_array (c : Dev nD) :
    Pipeline.withArrays (cfgs 0).spec c (V0 m c) (fun w => (dats m 0 c).arrAt w (cfgs 0).N) (Proc.devRef .tc main_v2_1)
      = keptWide (positions m c) :=
  (Pipeline.withArrays_arr spec0 launch0.win.arr_inj c _ _ 3).trans (final_kept m c)

/-- The flattened mask the program returns. -/
theorem tail_mask (c : Dev nD) :
    Pipeline.afterTail₀ cfgs (dats m) 0 (V0 m) [hostOps1] c main_v25 = maskOf (kept (positions m c)) := by
  unfold Pipeline.afterTail₀
  show StableHlo.after hostOps1 _ (Proc.devRef .tc main_v25) = _
  after_results
  rw [mask_array m c, narrow_kept]
  rfl

/-- The per-graph count the program returns. -/
theorem tail_count (c : Dev nD) :
    Pipeline.afterTail₀ cfgs (dats m) 0 (V0 m) [hostOps1] c main_v7 = countOf (kept (positions m c)) := by
  unfold Pipeline.afterTail₀
  show StableHlo.after hostOps1 _ (Proc.devRef .tc main_v7) = _
  after_results
  rw [mask_array m c, narrow_kept]
  rfl

/-- The edge table the program returns. -/
theorem tail_edges (c : Dev nD) :
    Pipeline.afterTail₀ cfgs (dats m) 0 (V0 m) [hostOps1] c main_v24 = edgeTable := by
  unfold Pipeline.afterTail₀
  show StableHlo.after hostOps1 _ (Proc.devRef .tc main_v24) = _
  after_results
  rfl

/-- THE RUN: every weakly fair execution of the kernel program terminates with the edge table, the flattened kept
    bits, their per-graph count and the distances of the positions as launched, and the arguments unchanged. -/
theorem run : θ_run defs (onTc (τ := τ) (main (F := Ideal))) ⟨m, fun _ => 0, ρ⟩ fun r => ∀ c : Dev nD,
      r.2.mem ((c.tc : Thread nD τ).loc main_v24) = edgeTable
      ∧ r.2.mem ((c.tc : Thread nD τ).loc main_v25) = maskOf (kept (positions m c))
      ∧ r.2.mem ((c.tc : Thread nD τ).loc main_v7) = countOf (kept (positions m c))
      ∧ r.2.mem ((c.tc : Thread nD τ).loc main_v2_0) = dist (positions m c)
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun r h c =>
    ⟨((h c).2 main_v24 (Pipeline.mem_restRefs_of main_v24 (by decide) (by decide))).trans (tail_edges m c),
      ((h c).2 main_v25 (Pipeline.mem_restRefs_of main_v25 (by decide) (by decide))).trans (tail_mask m c),
      ((h c).2 main_v7 (Pipeline.mem_restRefs_of main_v7 (by decide) (by decide))).trans (tail_count m c),
      ((h c).1 2).trans (final_dist m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c)))⟩)
    (run_main m ρ)

end Cert.KernelRun

end
-- ==== Proof.lean ====
/-
  Pairwise distances within a cutoff: the kernel against its reference, on the extended reals.

  For 64 graphs of 512 nodes with three coordinates each, both programs return the table of candidate edges, the
  flattened mask of kept pairs, the number of kept pairs per graph, and the [64, 512, 512] array of distances. The
  distance between nodes `i` and `j` of a graph is the square root of the sum over the three coordinates of the
  squared difference; the kernel accumulates the three terms from zero, left to right, from one tile of positions and
  its transpose per graph, and the reference sums them over a broadcast difference — the same number, since addition
  on the extended reals is associative with unit zero (no finiteness of the inputs is needed). A pair is kept when its
  distance is at most the cutoff and `i ≠ j`; the kernel stores the bit widened to 32 bits and the host narrows it
  again by "≠ 0", which is the identity on a bit, and the reference spells `i ≠ j` as "not (i + 0 = j)". The flattened
  mask and the count are then the same operations of the same bits, and the edge table depends on no input.

  The modules: `PairDistance` (the two arrays as functions of the positions, and the small laws), `ReferencePairs`
  (the reference computes them), `BodyPairs` (the kernel's body, entry by entry), `KernelArrays` (the 64 slabs the
  grid points write cover the two output arrays), `KernelRun` (the lines after the region; the run with every
  result named). The idealized kernel is the kernel's own text read on the extended reals — no operation of it was
  replaced — so `preserves` asks nothing.
-/
import proofs.«140292_j72224170049741_2_alg».proof.Defs
import proofs.«140292_j72224170049741_2_alg».proof.Proof.Gen.Kernel
import proofs.«140292_j72224170049741_2_alg».proof.Proof.Gen.Kernel.Skeleton
import proofs.«140292_j72224170049741_2_alg».proof.Proof.Gen.Kernel.Launch
import proofs.«140292_j72224170049741_2_alg».proof.Proof.Gen.Kernel.Points
import proofs.«140292_j72224170049741_2_alg».proof.Proof.Gen.Kernel.Frame
import proofs.«140292_j72224170049741_2_alg».proof.Proof.Gen.KernelIdeal
import proofs.«140292_j72224170049741_2_alg».proof.Proof.Gen.KernelIdeal.Skeleton
import proofs.«140292_j72224170049741_2_alg».proof.Proof.Gen.KernelIdeal.Launch
import proofs.«140292_j72224170049741_2_alg».proof.Proof.Gen.KernelIdeal.Points
import proofs.«140292_j72224170049741_2_alg».proof.Proof.Gen.KernelIdeal.Frame
import proofs.«140292_j72224170049741_2_alg».proof.Proof.Gen.ReferenceIdeal
import proofs.«140292_j72224170049741_2_alg».proof.Proof.Gen.ReferenceIdeal.Run
import proofs.«140292_j72224170049741_2_alg».proof.Proof.Gen.ReferenceIdeal.Read
import proofs.«140292_j72224170049741_2_alg».proof.Proof.Gen.Pre_finite_inputs
import proofs.«140292_j72224170049741_2_alg».proof.Proof.PairDistance
import proofs.«140292_j72224170049741_2_alg».proof.Proof.ReferencePairs
import proofs.«140292_j72224170049741_2_alg».proof.Proof.KernelRun
import Idealize.ShloMosaic.Adequacy
import Idealize.ShloMosaic.Init

noncomputable section

namespace Cert.Proof

open Idealize.ShloMosaic Idealize.SL.Sem
open Cert.PairDistance

/-- The kernel as printed runs and leaves its arguments as they were. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- So does the reference: its run, with the results dropped. -/
theorem frame_reference : Cert.frame_ReferenceIdeal := fun m ρ _ =>
  (θ_run Cert.ReferenceIdeal.defs _ _).mono (fun _ h c => ⟨(h c).2.2.2.2.1, (h c).2.2.2.2.2⟩)
    (Cert.ReferenceIdeal.Value.run (F := Ideal) m ρ)

/-- On the extended reals the two programs, run from memories that agree on the positions, end with the same four
    results: the edge table (no input enters it), the flattened kept bits, their per-graph count, and the distances. -/
theorem algebraic : Cert.algebraic_KernelIdeal_ReferenceIdeal := by
  intro m ρ m' ρ' _ hagree
  refine ⟨fun _ => Cert.KernelRun.edgeTable,
    fun c => Cert.KernelRun.maskOf (kept (Cert.KernelArrays.positions m c)),
    fun c => Cert.KernelRun.countOf (kept (Cert.KernelArrays.positions m c)),
    fun c => dist (Cert.KernelArrays.positions m c),
    Cert.KernelRun.run m ρ, ?_⟩
  refine (θ_run Cert.ReferenceIdeal.defs _ _).mono (fun _ h c => ?_)
    (Cert.ReferenceIdeal.Value.run (F := Ideal) m' ρ')
  obtain ⟨hedges, hmask, hcount, hdist, harg0, harg1⟩ := h c
  refine ⟨hedges.trans ?_, hmask.trans ?_, hcount.trans ?_, hdist.trans ?_, harg0, harg1⟩
  · rfl
  · refine (Cert.ReferenceIdeal.Read.val_main_v39_eq (F := Ideal) _).trans ?_
    unfold Cert.ReferenceIdeal.Read.val_main_v39
    rw [Cert.ReferencePairs.kept_eq, (hagree c).2]
    rfl
  · refine (Cert.ReferenceIdeal.Read.val_main_v21_eq (F := Ideal) _).trans ?_
    unfold Cert.ReferenceIdeal.Read.val_main_v21 Cert.ReferenceIdeal.Read.val_main_v20
    rw [Cert.ReferencePairs.kept_eq, (hagree c).2]
    rfl
  · refine (Cert.ReferenceIdeal.Read.val_main_v8_eq (F := Ideal) _).trans ?_
    rw [Cert.ReferencePairs.dist_eq, (hagree c).2]

theorem claim : Cert.Claim :=
  ⟨Cert.Kernel.Gen.facts, Cert.KernelIdeal.Gen.facts, Cert.ReferenceIdeal.Gen.facts, Cert.Pre_finite_inputs.Gen.facts,
    frame_kernel, frame_ideal, frame_reference, trivial, algebraic⟩

end Cert.Proof

end
